-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x1000 : Shape := ⟨2, ![32768, 1000]⟩
abbrev S32768 : Shape := ⟨1, ![32768]⟩
abbrev S_ : Shape := ⟨0, ![]⟩

class Facts : Prop where
  bcast_S_S32768x1000 : S_.BroadcastsInDim S32768x1000 (![] : Fin 0 → Fin S32768x1000.rank)
  reducesTo_S32768x1000_S_d0_1 : S32768x1000.ReducesTo [0, 1] S_
  h_S_ : 0 < S_.numel

variable [Facts]

def fn {F : FTy → Type} [FloatOps F] (main_arg0 : FVec F S32768x1000 .f32) (main_arg1 : IVec S32768 32) : IVec S_ 1 :=
  let main_v0 : FVec F S32768x1000 .f32 := Host.absf main_arg0
  let main_cst : FVec F S_ .f32 := constant S_ .f32 0x7F800000#32
  let main_v1 : FVec F S32768x1000 .f32 := broadcastInDim S32768x1000 ![] bcast_S_S32768x1000 main_cst
  let main_v2 : IVec S32768x1000 1 := cmpf .olt main_v0 main_v1
  let main_c : IVec S_ 1 := constantI S_ 1 1#1
  let main_v3 : IVec S_ 1 := (fun x v => Host.reduce IntOp.andi x v reducesTo_S32768x1000_S_d0_1 h_S_) main_v2 main_c
  main_v3
-- ==== Kernel.lean ====
abbrev S32768x1000 : Shape := ⟨2, ![32768, 1000]⟩
abbrev S32768 : Shape := ⟨1, ![32768]⟩
abbrev S512x1000 : Shape := ⟨2, ![512, 1000]⟩
abbrev S512 : Shape := ⟨1, ![512]⟩
abbrev S512x1 : Shape := ⟨2, ![512, 1]⟩
abbrev S_ : Shape := ⟨0, ![]⟩

abbrev nBuf : Space → Nat
  | .hbm => 7
  | .vmem => 6
  | .smem => 0
  | _ => 0

abbrev bufTy : (tb : Table) → Fin (tcTables nBuf tb) → BufTy
  | .hbm, ⟨0, _⟩ => ⟨S32768x1000, .f32⟩
  | .hbm, ⟨1, _⟩ => ⟨S32768, .i32⟩
  | .hbm, ⟨2, _⟩ => ⟨S32768, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .local _ .vmem, ⟨0, _⟩ => ⟨S512x1000, .f32⟩
  | .local _ .vmem, ⟨1, _⟩ => ⟨S512x1000, .f32⟩
  | .local _ .vmem, ⟨2, _⟩ => ⟨S512, .i32⟩
  | .local _ .vmem, ⟨3, _⟩ => ⟨S512, .i32⟩
  | .local _ .vmem, ⟨4, _⟩ => ⟨S512, .f32⟩
  | .local _ .vmem, ⟨5, _⟩ => ⟨S512, .f32⟩
  | _, _ => ⟨S32768x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  ![arg0.toNat]

def cc0_transform_2 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S512x1000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S512x1000_S512x1000_0_0 : ∀ a, (![0, 0] : Fin 2 → Nat) a + S512x1000.size a ≤ S512x1000.size a
  h_S512x1000 : 0 < S512x1000.numel
  inb_S512_S512_0 : ∀ a, (![0] : Fin 1 → Nat) a + S512.size a ≤ S512.size a
  h_S512 : 0 < S512.numel
  reduces_S512x1000_S512 : S512x1000.Reduces [1] S512
  shapeCasts_S512_S512x1 : S512.ShapeCasts S512x1
  broadcasts_S512x1_S512x1000 : S512x1.Broadcasts S512x1000
  iota_S512x1000_d1_w32 : S512x1000.Iotas .tc 32 [1]
  natLt_1_32 : 1 < 32
  reducesTo_S32768_S_d0 : S32768.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1000.size a ≤ S32768x1000.size a
  hwx0_0 : ∀ i : grid0.Coords, EltTy.bits .f32 = 32 ∨ (Rect.block (s := S32768x1000) S512x1000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512.size a ≤ S32768.size a
  hwx0_1 : ∀ i : grid0.Coords, EltTy.bits .i32 = 32 ∨ (Rect.block (s := S32768) S512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S32768.size a
  hwx0_2 : ∀ i : grid0.Coords, EltTy.bits .f32 = 32 ∨ (Rect.block (s := S32768) S512.size (cc0_transform_2 i) (hinb0_2 i)).WholeWords (EltTy.packing .f32)

variable [Facts₀]

abbrev win0_0 : Pipeline.Window sig grid0 :=
  Pipeline.Window.ofSpec (Memref.whole main_arg0) S512x1000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32768x1000 : Shape := ⟨2, ![32768, 1000]⟩
abbrev S32768 : Shape := ⟨1, ![32768]⟩
abbrev S_ : Shape := ⟨0, ![]⟩
abbrev S32768x1 : Shape := ⟨2, ![32768, 1]⟩
abbrev S1x1000 : Shape := ⟨2, ![1, 1000]⟩

abbrev nBuf : Space → Nat
  | .hbm => 53
  | .vmem => 0
  | .smem => 0
  | _ => 0

abbrev bufTy : (tb : Table) → Fin (tcTables nBuf tb) → BufTy
  | .hbm, ⟨0, _⟩ => ⟨S32768x1000, .f32⟩
  | .hbm, ⟨1, _⟩ => ⟨S32768, .i32⟩
  | .hbm, ⟨2, _⟩ => ⟨S_, .f32⟩
  | .hbm, ⟨3, _⟩ => ⟨S32768, .f32⟩
  | .hbm, ⟨4, _⟩ => ⟨S_, .f32⟩
  | .hbm, ⟨5, _⟩ => ⟨S32768, .f32⟩
  | .hbm, ⟨6, _⟩ => ⟨S32768, .f32⟩
  | .hbm, ⟨7, _⟩ => ⟨S32768x1, .f32⟩
  | .hbm, ⟨8, _⟩ => ⟨S32768x1000, .f32⟩
  | .hbm, ⟨9, _⟩ => ⟨S32768x1000, .f32⟩
  | .hbm, ⟨10, _⟩ => ⟨S32768x1000, .f32⟩
  | .hbm, ⟨11, _⟩ => ⟨S_, .f32⟩
  | .hbm, ⟨12, _⟩ => ⟨S32768, .f32⟩
  | .hbm, ⟨13, _⟩ => ⟨S32768x1, .f32⟩
  | .hbm, ⟨14, _⟩ => ⟨S32768x1000, .f32⟩
  | .hbm, ⟨15, _⟩ => ⟨S32768x1000, .f32⟩
  | .hbm, ⟨16, _⟩ => ⟨S32768x1, .i32⟩
  | .hbm, ⟨17, _⟩ => ⟨S1x1000, .i32⟩
  | .hbm, ⟨18, _⟩ => ⟨S32768x1000, .i32⟩
  | .hbm, ⟨19, _⟩ => ⟨S32768x1000, .i32⟩
  | .hbm, ⟨20, _⟩ => ⟨S32768x1000, .i1⟩
  | .hbm, ⟨21, _⟩ => ⟨S32768x1000, .f32⟩
  | .hbm, ⟨22, _⟩ => ⟨S_, .f32⟩
  | .hbm, ⟨23, _⟩ => ⟨S32768x1000, .f32⟩
  | .hbm, ⟨24, _⟩ => ⟨S32768x1000, .f32⟩
  | .hbm, ⟨25, _⟩ => ⟨S_, .f32⟩
  | .hbm, ⟨26, _⟩ => ⟨S32768x1000, .f32⟩
  | .hbm, ⟨27, _⟩ => ⟨S32768x1000, .f32⟩
  | .hbm, ⟨28, _⟩ => ⟨S32768x1000, .f32⟩
  | .hbm, ⟨29, _⟩ => ⟨S32768x1000, .f32⟩
  | .hbm, ⟨30, _⟩ => ⟨S32768x1000, .f32⟩
  | .hbm, ⟨31, _⟩ => ⟨S_, .f32⟩
  | .hbm, ⟨32, _⟩ => ⟨S32768x1000, .f32⟩
  | .hbm, ⟨33, _⟩ => ⟨S32768x1000, .f32⟩
  | .hbm, ⟨34, _⟩ => ⟨S_, .f32⟩
  | .hbm, ⟨35, _⟩ => ⟨S32768x1000, .f32⟩
  | .hbm, ⟨36, _⟩ => ⟨S32768x1000, .f32⟩
  | .hbm, ⟨37, _⟩ => ⟨S_, .f32⟩
  | .hbm, ⟨38, _⟩ => ⟨S32768x1000, .f32⟩
  | .hbm, ⟨39, _⟩ => ⟨S32768x1000, .f32⟩
  | .hbm, ⟨40, _⟩ => ⟨S32768x1000, .f32⟩
  | .hbm, ⟨41, _⟩ => ⟨S_, .f32⟩
  | .hbm, ⟨42, _⟩ => ⟨S32768x1000, .f32⟩
  | .hbm, ⟨43, _⟩ => ⟨S32768x1000, .f32⟩
  | .hbm, ⟨44, _⟩ => ⟨S_, .f32⟩
  | .hbm, ⟨45, _⟩ => ⟨S32768, .f32⟩
  | .hbm, ⟨46, _⟩ => ⟨S_, .f32⟩
  | .hbm, ⟨47, _⟩ => ⟨S32768, .f32⟩
  | .hbm, ⟨48, _⟩ => ⟨S32768, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | _, _ => ⟨S32768x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_7 : Ref sig .tc := ⟨.hbm, 41, rfl⟩
abbrev main_v26 : Ref sig .tc := ⟨.hbm, 42, rfl⟩
abbrev main_v27 : Ref sig .tc := ⟨.hbm, 43, rfl⟩
abbrev main_cst_8 : Ref sig .tc := ⟨.hbm, 44, rfl⟩
abbrev main_v28 : Ref sig .tc := ⟨.hbm, 45, rfl⟩
abbrev main_cst_9 : Ref sig .tc := ⟨.hbm, 46, rfl⟩
abbrev main_v29 : Ref sig .tc := ⟨.hbm, 47, rfl⟩
abbrev main_v30 : Ref sig .tc := ⟨.hbm, 48, rfl⟩
abbrev main_cst_10 : Ref sig .tc := ⟨.hbm, 49, rfl⟩
abbrev main_v31 : Ref sig .tc := ⟨.hbm, 50, rfl⟩
abbrev main_cst_11 : Ref sig .tc := ⟨.hbm, 51, rfl⟩
abbrev main_v32 : Ref sig .tc := ⟨.hbm, 52, rfl⟩

abbrev nD : Nat := 1
abbrev τ : Topo := Topo.v7x

variable {F : FTy → Type} [FloatOps F]

class Facts₀ : Prop where
  reducesTo_S32768x1000_S32768_d1 : S32768x1000.ReducesTo [1] S32768
  h_S_ : 0 < S_.numel
  bcast_S_S32768 : S_.BroadcastsInDim S32768 (![] : Fin 0 → Fin S32768.rank)
  bcast_S32768_S32768x1_0 : S32768.BroadcastsInDim S32768x1 (![0] : Fin 1 → Fin S32768x1.rank)
  bcast_S32768x1_S32768x1000_0_1 : S32768x1.BroadcastsInDim S32768x1000 (![0, 1] : Fin 2 → Fin S32768x1000.rank)
  bcast_S1x1000_S32768x1000_0_1 : S1x1000.BroadcastsInDim S32768x1000 (![0, 1] : Fin 2 → Fin S32768x1000.rank)
  bcast_S_S32768x1000 : S_.BroadcastsInDim S32768x1000 (![] : Fin 0 → Fin S32768x1000.rank)
  reducesTo_S32768_S_d0 : S32768.ReducesTo [0] S_

variable [Facts₀]

class Facts : Prop extends Facts₀ where

variable [Facts]
-- ==== Proof.LibDotIdx.lean ====
import Idealize.ShloMosaic.Lib.ValueIdx
import Idealize.ShloMosaic.PureOps.Ideal.Laws

/-!
# A matrix product into a zero accumulator, read at an index

Two arrangements of a rank-2 product with one contracted axis, at the exact extended reals: the plain one
(rows of the left operand against columns of the right) and the one that contracts the second axis of BOTH
operands (rows against rows).  Read at `(a, b)`, each is the sum over the contracted coordinate of the products
of the two entries; the zero accumulator contributes nothing.
-/

noncomputable section

namespace DotIdx

open Idealize.ShloMosaic Idealize.ShloMosaic.ValueIdx

variable {m k n : ℕ} {φ₁ φ₂ : FTy}

/-- Rows against columns: `[m, k] × [k, n] → [m, n]`. -/
theorem matmul_plain_zero_apply
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims _ _ _) prec A B
        (constant ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- Rows against rows: `[m, k] × [n, k] → [m, n]`, the second axis of both operands contracted. -/
theorem matmul_rows_zero_apply
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (a : Fin m) (b : Fin n) :
    matmul (⟨[1], [1], [0], [0], [], [], w⟩ : DotDims _ _ _) prec A B
        (constant ⟨2, ![m, n]⟩ .f32 0x00000000#32) (ix2 a b)
      = ∑ c : Fin k, A (ix2 a c) * B (ix2 b c) := by
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end DotIdx

end
-- ==== Proof.LibKeepdims.lean ====
/-
  The small readings the kernel's body needs at an index: the two keepdims layout forms (a column
  of row results cast to one column, and one column broadcast along the rows), the result index of a
  reduction along the rows with the reduced coordinate put back, a one-bit comparison word widened to
  32 bits and converted to a float as `0` or `1`, the word arithmetic of a row offset below 8192, and
  a fold of `max` from minus infinity as a supremum.
-/
import Idealize.ShloMosaic.Lib.ValueIdx
import Idealize.ShloMosaic.Lib.Pipeline.Value
import Idealize.ShloMosaic.Lib.ValueLayout
import Idealize.ShloMosaic.Lib.Affine
import Idealize.ShloMosaic.PureOps.Ideal.Laws

noncomputable section

namespace Cert.SupCon.Ker

open Idealize.ShloMosaic Idealize.ShloMosaic.ValueIdx

/-! ## The keepdims layout forms -/

/-- A vector `[a]` cast to one column `[a, 1]` reads, at `(i, 0)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- One column `[a, 1]` broadcast along the rows to `[a, b]` reads, at `(p, c)`, the operand at `(p, 0)`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index of a `[a, b]` array that reduces along the rows into `i`, with column `k`, is `(i, k)`. -/
theorem lift_rows {a b : ℕ} (h : (⟨2, ![a, b]⟩ : Shape).Reduces [1] ⟨1, ![a]⟩) (i : Fin a) (k : Fin b) :
    h.lift (ix1 i) k = ix2 i k :=
  funext fun ax => Fin.ext (by
    match ax with
    | ⟨0, _⟩ => rfl
    | ⟨1, _⟩ => rfl)

/-! ## A comparison word as a float -/

/-- A one-bit word widened to 32 bits and converted as a signed integer is `1` or `0`. -/
theorem sitofp_setWidth (b : BitVec 1) :
    FloatOps.sitofp (F := Ideal) .f32 (b.setWidth 32) = if b = 1#1 then (1 : EReal) else 0 := by
  have e0 : ((0#1 : BitVec 1).setWidth 32).toInt = 0 := by decide
  have e1 : ((1#1 : BitVec 1).setWidth 32).toInt = 1 := by decide
  rcases (by decide : ∀ b : BitVec 1, b = 0#1 ∨ b = 1#1) b with rfl | rfl
  · show (((((0#1 : BitVec 1).setWidth 32).toInt : ℤ) : ℝ) : EReal) = _
    rw [e0, if_neg (by decide)]; simp
  · show (((((1#1 : BitVec 1).setWidth 32).toInt : ℤ) : ℝ) : EReal) = _
    rw [e1, if_pos rfl]; simp

/-- The float of an equality comparison of two words. -/
theorem mask_eq {w : ℕ} (x y : BitVec w) :
    FloatOps.sitofp (F := Ideal) .f32 ((IntOp.cmpi .eq x y).setWidth 32) = if x = y then (1 : EReal) else 0 := by
  rw [sitofp_setWidth]
  exact if_congr IntOp.cmpi_eq rfl rfl

/-- The float of an inequality comparison of two words. -/
theorem mask_ne {w : ℕ} (x y : BitVec w) :
    FloatOps.sitofp (F := Ideal) .f32 ((IntOp.cmpi .ne x y).setWidth 32) = if x = y then (0 : EReal) else 1 := by
  rw [sitofp_setWidth]
  by_cases hxy : x = y
  · rw [if_pos hxy, if_neg (fun h => (IntOp.cmpi_ne.mp h) hxy)]
  · rw [if_neg hxy, if_pos (IntOp.cmpi_ne.mpr hxy)]

/-- Row `128 t + r` as 32-bit words, the block's offset `t * 128` a product of words, meets column `j`
    exactly when the two numbers are equal: nothing wraps below 8192. -/
theorem row_word_eq (t r j : ℕ) (ht : t < 64) (hr : r < 128) (hj : j < 8192) :
    IntOp.addi (Scalar.muli (BitVec.ofNat 32 t) 128#32) (BitVec.ofNat 32 r) = BitVec.ofNat 32 j ↔ 128 * t + r = j := by
  show BitVec.ofNat 32 t * 128#32 + BitVec.ofNat 32 r = BitVec.ofNat 32 j ↔ _
  rw [← BitVec.toNat_inj]
  simp only [BitVec.toNat_add, BitVec.toNat_mul, BitVec.toNat_ofNat]
  omega

/-! ## The largest entry of a row -/

/-- The single-precision word `0xFF800000` is minus infinity. -/
theorem ofBits_negInf : Ideal.ofBits .f32 0xFF800000#32 = ⊥ := by simp [Ideal.ofBits, Ideal.ieee]

/-- A fold of `max` from minus infinity is the supremum. -/
theorem fold_max_bot {ι : Type*} (s : Finset ι) (f : ι → EReal) : s.fold max ⊥ f = s.sup f := rfl

end Cert.SupCon.Ker

end
-- ==== Proof.LibRowOps.lean ====
/-
  Rank-2 arrays read row by row at the exact extended reals, in the two spellings a kernel body and a host program
  give each form: a bias vector laid along every row; a column of per-row results laid along every column; the maximum
  and the sum of a row; the host's plain matrix product as a sum over the contracted coordinate. Each lemma reads the
  form at an index `(p, q)` and says which entries of the operand it depends on.
-/
import Idealize.ShloMosaic.Lib.ValueIdx
import Idealize.ShloMosaic.Lib.Pipeline.Value
import Idealize.ShloMosaic.Lib.KernelVsHost
import Idealize.ShloMosaic.PureOps.Ideal.Laws
import proofs.«146801_j28621662060559_1_alg».proof.Proof.LibDotIdx
import proofs.«146801_j28621662060559_1_alg».proof.Proof.LibKeepdims

noncomputable section

namespace Cert.LibRowOps

open Idealize.ShloMosaic Idealize.ShloMosaic.ValueIdx

variable {α : Type}

/-! ## A vector laid along every row -/

/-- The kernel's spelling: the vector cast to one row, the row broadcast down `m` rows. At `(p, q)` it is entry `q`. -/
theorem rowVec_kernel_apply {m n : Nat} (x : (⟨1, ![n]⟩ : Shape).Idx → α)
    (h1 : (⟨1, ![n]⟩ : Shape).ShapeCasts ⟨2, ![1, n]⟩) (hb : (⟨2, ![1, n]⟩ : Shape).Broadcasts ⟨2, ![m, n]⟩)
    (p : Fin m) (q : Fin n) :
    broadcastTo ⟨2, ![m, n]⟩ (shapeCast ⟨2, ![1, n]⟩ x h1) hb (ix2 p q) = x (ix1 q) := by
  have e1 := broadcastTo_apply (shapeCast ⟨2, ![1, n]⟩ x h1) hb (ix2 p q) (ix2 (0 : Fin 1) q) (by
    intro a
    match a with
    | ⟨0, _⟩ => rfl
    | ⟨1, _⟩ =>
      show q.val = if n = 1 then 0 else q.val
      split
      · have e : q.val < n := q.isLt; omega
      · rfl)
  have e2 := shapeCast_apply x h1 (ix2 (0 : Fin 1) q) (ix1 q) (by
    rw [Shape.rowMajor_val_two, Shape.rowMajor_val_one]; show q.val = 0 * n + q.val; omega)
  exact e1.trans e2

/-- The host's spelling: the vector broadcast along axis 1 to one row, the row broadcast along both axes. At `(p, q)`
    it is entry `q`. -/
theorem rowVec_host_apply {m n : Nat} (x : (⟨1, ![n]⟩ : Shape).Idx → α)
    (hd1 : (⟨1, ![n]⟩ : Shape).BroadcastsInDim ⟨2, ![1, n]⟩ ![1])
    (hd : (⟨2, ![1, n]⟩ : Shape).BroadcastsInDim ⟨2, ![m, n]⟩ ![0, 1]) (p : Fin m) (q : Fin n) :
    broadcastInDim ⟨2, ![m, n]⟩ ![0, 1] hd (broadcastInDim ⟨2, ![1, n]⟩ ![1] hd1 x) (ix2 p q) = x (ix1 q) := by
  rw [broadcastInDim_oneRow_apply]
  refine broadcastInDim_apply ![1] hd1 x (ix2 (0 : Fin 1) q) (ix1 q) ?_
  intro a
  match a with
  | ⟨0, _⟩ =>
    show q.val = if n = 1 then 0 else q.val
    split
    · have e : q.val < n := q.isLt; omega
    · rfl

/-! ## A column of per-row results laid along every column -/

/-- The kernel's spelling: the vector of row results cast to one column, the column broadcast along the rows. At
    `(p, q)` it is entry `p`. -/
theorem colVec_kernel_apply {a b : Nat} (v : (⟨1, ![a]⟩ : Shape).Idx → α)
    (h1 : (⟨1, ![a]⟩ : Shape).ShapeCasts ⟨2, ![a, 1]⟩) (hb : (⟨2, ![a, 1]⟩ : Shape).Broadcasts ⟨2, ![a, b]⟩)
    (p : Fin a) (q : Fin b) :
    broadcastTo ⟨2, ![a, b]⟩ (shapeCast ⟨2, ![a, 1]⟩ v h1) hb (ix2 p q) = v (ix1 p) := by
  rw [Cert.SupCon.Ker.broadcastTo_a1_ab_apply, Cert.SupCon.Ker.shapeCast_a_a1_apply]

/-- The host's column laid along the columns: one column broadcast along both axes reads, at `(p, q)`, its entry `(p, 0)`. -/
theorem colBcast_host_apply {a b : Nat} (y : (⟨2, ![a, 1]⟩ : Shape).Idx → α)
    (hd : (⟨2, ![a, 1]⟩ : Shape).BroadcastsInDim ⟨2, ![a, b]⟩ ![0, 1]) (p : Fin a) (q : Fin b) :
    broadcastInDim ⟨2, ![a, b]⟩ ![0, 1] hd y (ix2 p q) = y (ix2 p (0 : Fin 1)) :=
  broadcastInDim_apply ![0, 1] hd y (ix2 p q) (ix2 p (0 : Fin 1)) (by
    intro ax
    match ax with
    | ⟨0, _⟩ =>
      show p.val = if a = 1 then 0 else p.val
      split
      · have e : p.val < a := p.isLt; omega
      · rfl
    | ⟨1, _⟩ => rfl)

/-- The host's vector as one column: broadcast along axis 0 it reads, at `(p, 0)`, entry `p`. -/
theorem col1_host_apply {a : Nat} (v : (⟨1, ![a]⟩ : Shape).Idx → α)
    (hd0 : (⟨1, ![a]⟩ : Shape).BroadcastsInDim ⟨2, ![a, 1]⟩ ![0]) (p : Fin a) :
    broadcastInDim ⟨2, ![a, 1]⟩ ![0] hd0 v (ix2 p (0 : Fin 1)) = v (ix1 p) :=
  broadcastInDim_apply ![0] hd0 v (ix2 p (0 : Fin 1)) (ix1 p) (by
    intro ax
    match ax with
    | ⟨0, _⟩ =>
      show p.val = if a = 1 then 0 else p.val
      split
      · have e : p.val < a := p.isLt; omega
      · rfl)

/-- The host's spelling: the vector broadcast along axis 0 to one column, the column broadcast along both axes. At
    `(p, q)` it is entry `p`. -/
theorem colVec_host_apply {a b : Nat} (v : (⟨1, ![a]⟩ : Shape).Idx → α)
    (hd0 : (⟨1, ![a]⟩ : Shape).BroadcastsInDim ⟨2, ![a, 1]⟩ ![0])
    (hd : (⟨2, ![a, 1]⟩ : Shape).BroadcastsInDim ⟨2, ![a, b]⟩ ![0, 1]) (p : Fin a) (q : Fin b) :
    broadcastInDim ⟨2, ![a, b]⟩ ![0, 1] hd (broadcastInDim ⟨2, ![a, 1]⟩ ![0] hd0 v) (ix2 p q) = v (ix1 p) := by
  rw [colBcast_host_apply, col1_host_apply]

/-! ## The pointwise transcendentals at an index -/

theorem hostLog_apply {s : Shape} {φ : FTy} (x : FVec Ideal s φ) (i : s.Idx) : Host.log x i = Ideal.log (x i) := rfl
theorem hostExp_apply {s : Shape} {φ : FTy} (x : FVec Ideal s φ) (i : s.Idx) : Host.exp x i = Ideal.exp (x i) := rfl
theorem log_apply {s : Shape} {φ : FTy} (x : FVec Ideal s φ) (i : s.Idx) : log x i = Ideal.log (x i) := rfl
theorem exp_apply {s : Shape} {φ : FTy} (x : FVec Ideal s φ) (i : s.Idx) : exp x i = Ideal.exp (x i) := rfl

/-! ## The maximum and the sum of a row -/

/-- The kernel's maximum along the rows, at row `p`: the fold of `max` from the accumulator's value over the row. -/
theorem rowMax_kernel_apply {a b : Nat} {φ : FTy} (src : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (p : Fin a) :
    multiReduction .maximumf [1] ⟨1, ![a]⟩ src acc h hφ hacc (ix1 p)
      = (Finset.univ : Finset (Fin b)).fold max (FloatOps.ofBits φ acc) (fun k => src (ix2 p k)) := by
  rw [Ideal.multiReduction_maximumf_single]
  have hf : (src ∘ h.lift (ix1 p)) = fun k : Fin b => src (ix2 p k) :=
    funext fun k => congrArg src (Cert.SupCon.Ker.lift_rows h p k)
  exact congrArg (fun f => Finset.fold max (FloatOps.ofBits φ acc) f (Finset.univ : Finset (Fin b))) hf

/-- The host's maximum along the rows, at row `p`: the fold of `max` from the initial value over the row. -/
theorem rowMax_host_apply {a b : Nat} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce FloatOps.maximumf x init h' hu (ix1 p)
      = (Finset.univ : Finset (Fin b)).fold max (init (Shape.Idx.first hu)) (fun k => x (ix2 p k)) := by
  rw [Host.reduce_eq_fold_single FloatOps.maximumf x init h' h hu]
  have hf : (x ∘ h.lift (ix1 p)) = fun k : Fin b => x (ix2 p k) :=
    funext fun k => congrArg x (Cert.SupCon.Ker.lift_rows h p k)
  exact congrArg (fun f => Finset.fold max (init (Shape.Idx.first hu)) f (Finset.univ : Finset (Fin b))) hf

/-- The kernel's sum along the rows, at row `p`: the sum of the row (the neutral accumulator adds nothing). -/
theorem rowSum_kernel_apply {a b : Nat} {φ : FTy} (src : FVec Ideal ⟨2, ![a, b]⟩ φ) (acc : BitVec φ.bits)
    (h : (⟨2, ![a, b]⟩ : Shape).Reduces [1] ⟨1, ![a]⟩) (hφ : FKind.Formats φ)
    (hacc : acc = FKind.add.neutral φ hφ) (p : Fin a) :
    multiReduction .add [1] ⟨1, ![a]⟩ src acc h hφ hacc (ix1 p) = ∑ k : Fin b, src (ix2 p k) := by
  rw [Ideal.multiReduction_add_single]
  exact Finset.sum_congr rfl fun k _ => congrArg src (Cert.SupCon.Ker.lift_rows h p k)

/-- The host's sum along the rows, at row `p`: the initial value plus the sum of the row. -/
theorem rowSum_host_apply {a b : Nat} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduceAdd x init h' hu (ix1 p) = init (Shape.Idx.first hu) + ∑ k : Fin b, x (ix2 p k) := by
  show Ideal.hostReduceAdd h' x (init (Shape.Idx.first hu)) (ix1 p) = _
  rw [Ideal.hostReduceAdd_single h' h]
  exact congrArg (_ + ·) (Finset.sum_congr rfl fun k _ => congrArg x (Cert.SupCon.Ker.lift_rows h p k))

/-! ## The host's plain matrix product -/

/-- Rows against columns on the host, `[m, k] × [k, n] → [m, n]`: at `(a, b)` the sum over the contracted coordinate
    of the products of the two entries. -/
theorem dotGeneral_plain_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (⟨[1], [0], [0], [1], [], [], w⟩ : DotDims _ _ _) prec A B (ix2 a b)
      = ∑ c : Fin k, A (ix2 a c) * B (ix2 c b) :=
  (congrFun (matmul_zero_eq_dotGeneral (⟨[1], [0], [0], [1], [], [], w⟩ : DotDims _ _ _) prec A B) (ix2 a b)).symm.trans
    (DotIdx.matmul_plain_zero_apply w prec A B a b)

end Cert.LibRowOps

end
-- ==== Proof.LibSoftmaxRows.lean ====
/-
  Rows of logits on the extended reals, and their readings in two programs' spellings.

  Row level (a row is a function `Fin n → EReal`): the exponential of an entry less the row's largest entry
  (`shiftExp`; the maximum a fold of `max` from the word of minus infinity), the softmax probability of a class
  (`prob`: that exponential over the row's sum of them), and the one-hot indicator of a target class given as a
  32-bit word (`hot`: `1` at the class whose number is the word, `0` elsewhere).

  Array level, for a rank-2 array of `a` rows and `b` classes, each read at an entry `(r, k)` as the row-level
  function of row `r`:
  * a kernel body's spelling (`expsK`, `probsK`, `hotsK`): a reduction along the rows, the vector of row results
    cast to one column and broadcast along the classes; the class numbers from an iota along the classes, compared
    with the targets' column, the comparison bit widened to 32 bits and converted as a signed integer;
  * a host program's spelling (`expsH`, `probsH`, `hotsH`): the same with `broadcast_in_dim`s, the row maximum
    taken once more against minus infinity, the row sum totalled from the zero word, and the comparison bit
    converted as an unsigned integer against class numbers laid along one row.

  Three small laws beside them: a finite nonnegative factor distributes over every finite sum of extended reals
  (`sum_mul_of_nonneg_ne_top`); raising to the power `1.0` changes no extended real (`pow_word_one`); a one-bit
  word read unsigned is `0` or `1` (`uitofp_bit`).
-/
import Idealize.ShloMosaic.Lib.ValueIdx
import Idealize.ShloMosaic.Lib.Pipeline.Value
import Idealize.ShloMosaic.Lib.IdealHost
import Idealize.ShloMosaic.PureOps.Ideal.Laws
import proofs.«146801_j28621662060559_1_alg».proof.Proof.LibRowOps

noncomputable section

namespace Cert.LibSoftmaxRows

open Idealize.ShloMosaic Idealize.ShloMosaic.ValueIdx

/-! ## One row -/

/-- The word of minus infinity, from which a row's maximum is folded. -/
abbrev negInf : EReal := Ideal.ofBits .f32 0xFF800000#32

section Row

variable {n : ℕ}

/-- The exponential of an entry less the row's largest entry. -/
def shiftExp (x : Fin n → EReal) (k : Fin n) : EReal :=
  Ideal.exp (x k - (Finset.univ : Finset (Fin n)).fold max negInf x)

/-- The softmax probability of class `k`. -/
def prob (x : Fin n → EReal) (k : Fin n) : EReal := Ideal.div (shiftExp x k) (∑ j, shiftExp x j)

/-- The one-hot indicator of the target: `1` at the class whose number is the target word, `0` elsewhere
    (a target outside the classes marks none). -/
def hot (t : BitVec 32) (k : Fin n) : EReal := if BitVec.ofNat 32 k.val = t then 1 else 0

end Row

/-! ## Three small laws -/

/-- A finite nonnegative factor distributes over a sum of extended reals, infinite terms included. -/
theorem sum_mul_of_nonneg_ne_top {ι : Type*} (s : Finset ι) (f : ι → EReal) {c : EReal} (h0 : 0 ≤ c) (ht : c ≠ ⊤) :
    (∑ i ∈ s, f i) * c = ∑ i ∈ s, f i * c := by
  classical
  induction s using Finset.induction_on with
  | empty => simp
  | insert a s ha ih =>
    rw [Finset.sum_insert ha, Finset.sum_insert ha, EReal.right_distrib_of_nonneg_of_ne_top h0 ht, ih]

/-- The word of `1.0` is the extended real one. -/
theorem ofBits_one : Ideal.ofBits .f32 0x3F800000#32 = 1 := by
  simp [Ideal.ofBits, Ideal.ieee, -EReal.coe_mul]; norm_num

/-- Raising to the power `1.0` changes nothing, at the infinities too. -/
theorem pow_word_one (x : EReal) : Ideal.pow x (Ideal.ofBits .f32 0x3F800000#32) = x := by
  rw [ofBits_one]
  induction x using EReal.rec with
  | bot => rfl
  | top => simp [Ideal.pow_top]
  | coe r =>
    show Ideal.pow (r : EReal) ((1 : ℝ) : EReal) = _
    rw [Ideal.pow_coe_coe]
    exact congrArg _ (Real.rpow_one r)

/-- A one-bit word read unsigned is `1` or `0`. -/
theorem uitofp_bit (w : BitVec 1) : FloatOps.uitofp (F := Ideal) .f32 w = if w = 1#1 then (1 : EReal) else 0 := by
  rcases (by decide : ∀ w : BitVec 1, w = 0#1 ∨ w = 1#1) w with rfl | rfl
  · show (((((0#1 : BitVec 1).toNat : ℕ) : ℝ) : EReal)) = _
    rw [if_neg (by decide)]; simp
  · show (((((1#1 : BitVec 1).toNat : ℕ) : ℝ) : EReal)) = _
    rw [if_pos rfl]; simp

variable {a b : ℕ}

/-! ## The kernel body's spelling -/

section Kernel

variable (x0 : FVec Ideal ⟨2, ![a, b]⟩ .f32) (x1 : IVec ⟨1, ![a]⟩ 32)
  (hr : (⟨2, ![a, b]⟩ : Shape).Reduces [1] ⟨1, ![a]⟩) (hc : (⟨1, ![a]⟩ : Shape).ShapeCasts ⟨2, ![a, 1]⟩)
  (hb : (⟨2, ![a, 1]⟩ : Shape).Broadcasts ⟨2, ![a, b]⟩) (hφ : FKind.Formats .f32)
  (hm : (0xFF800000#32 : BitVec 32) = FKind.maximumf.neutral .f32 hφ)
  (hz : (0x00000000#32 : BitVec 32) = FKind.add.neutral .f32 hφ)

/-- The entries less their row's maximum, exponentiated. -/
def expsK : FVec Ideal ⟨2, ![a, b]⟩ .f32 :=
  exp (subf x0 (broadcastTo ⟨2, ![a, b]⟩ (shapeCast ⟨2, ![a, 1]⟩
    (multiReduction .maximumf [1] ⟨1, ![a]⟩ x0 0xFF800000#32 hr hφ hm) hc) hb))

theorem expsK_apply (r : Fin a) (k : Fin b) :
    expsK x0 hr hc hb hφ hm (ix2 r k) = shiftExp (fun j => x0 (ix2 r j)) k := by
  show Ideal.exp (x0 (ix2 r k) - broadcastTo ⟨2, ![a, b]⟩ (shapeCast ⟨2, ![a, 1]⟩
    (multiReduction .maximumf [1] ⟨1, ![a]⟩ x0 0xFF800000#32 hr hφ hm) hc) hb (ix2 r k)) = _
  rw [Cert.LibRowOps.colVec_kernel_apply, Cert.LibRowOps.rowMax_kernel_apply]
  rfl

/-- The probabilities: the exponentials over their row's sum. -/
def probsK : FVec Ideal ⟨2, ![a, b]⟩ .f32 :=
  divf (expsK x0 hr hc hb hφ hm) (broadcastTo ⟨2, ![a, b]⟩ (shapeCast ⟨2, ![a, 1]⟩
    (multiReduction .add [1] ⟨1, ![a]⟩ (expsK x0 hr hc hb hφ hm) 0x00000000#32 hr hφ hz) hc) hb)

theorem probsK_apply (r : Fin a) (k : Fin b) :
    probsK x0 hr hc hb hφ hm hz (ix2 r k) = prob (fun j => x0 (ix2 r j)) k := by
  show Ideal.div (expsK x0 hr hc hb hφ hm (ix2 r k)) (broadcastTo ⟨2, ![a, b]⟩ (shapeCast ⟨2, ![a, 1]⟩
    (multiReduction .add [1] ⟨1, ![a]⟩ (expsK x0 hr hc hb hφ hm) 0x00000000#32 hr hφ hz) hc) hb (ix2 r k)) = _
  rw [Cert.LibRowOps.colVec_kernel_apply, Cert.LibRowOps.rowSum_kernel_apply, expsK_apply]
  unfold prob
  exact congrArg _ (Finset.sum_congr rfl fun j _ => expsK_apply x0 hr hc hb hφ hm r j)

/-- The one-hot indicators: the class numbers against the rows' targets. -/
def hotsK (hi : (⟨2, ![a, b]⟩ : Shape).Iotas .tc 32 [1]) (hlt : 1 < 32) : FVec Ideal ⟨2, ![a, b]⟩ .f32 :=
  sitofp .f32 (extui 32 (cmpi .eq (iota .tc ⟨2, ![a, b]⟩ 32 [1] hi)
    (broadcastTo ⟨2, ![a, b]⟩ (shapeCast ⟨2, ![a, 1]⟩ x1 hc) hb)) hlt)

theorem hotsK_apply (hi : (⟨2, ![a, b]⟩ : Shape).Iotas .tc 32 [1]) (hlt : 1 < 32) (r : Fin a) (k : Fin b) :
    hotsK x1 hc hb hi hlt (ix2 r k) = hot (x1 (ix1 r)) k := by
  show FloatOps.sitofp (F := Ideal) .f32 ((IntOp.cmpi .eq (iota .tc ⟨2, ![a, b]⟩ 32 [1] hi (ix2 r k))
    (broadcastTo ⟨2, ![a, b]⟩ (shapeCast ⟨2, ![a, 1]⟩ x1 hc) hb (ix2 r k))).setWidth 32) = _
  rw [Cert.SupCon.Ker.mask_eq, iota_single_apply, Cert.LibRowOps.colVec_kernel_apply]
  rfl

end Kernel

/-! ## The host's spelling -/

section Host

variable (x0 : FVec Ideal ⟨2, ![a, b]⟩ .f32) (x1 : IVec ⟨1, ![a]⟩ 32)
  (hr' : (⟨2, ![a, b]⟩ : Shape).ReducesTo [1] ⟨1, ![a]⟩)
  (hu : 0 < (⟨0, ![]⟩ : Shape).numel)
  (hs : (⟨0, ![]⟩ : Shape).BroadcastsInDim ⟨1, ![a]⟩ ![])
  (hd0 : (⟨1, ![a]⟩ : Shape).BroadcastsInDim ⟨2, ![a, 1]⟩ ![0])
  (hd : (⟨2, ![a, 1]⟩ : Shape).BroadcastsInDim ⟨2, ![a, b]⟩ ![0, 1])

/-- The entries less their row's maximum (taken once more against minus infinity), exponentiated. -/
def expsH : FVec Ideal ⟨2, ![a, b]⟩ .f32 :=
  Host.exp (subf x0 (broadcastInDim ⟨2, ![a, b]⟩ ![0, 1] hd (broadcastInDim ⟨2, ![a, 1]⟩ ![0] hd0
    (maximumf (broadcastInDim ⟨1, ![a]⟩ ![] hs (constant ⟨0, ![]⟩ .f32 0xFF800000#32))
      (Host.reduce FloatOps.maximumf x0 (constant ⟨0, ![]⟩ .f32 0xFF800000#32) hr' hu)))))

theorem expsH_apply (hr : (⟨2, ![a, b]⟩ : Shape).Reduces [1] ⟨1, ![a]⟩) (r : Fin a) (k : Fin b) :
    expsH x0 hr' hu hs hd0 hd (ix2 r k) = shiftExp (fun j => x0 (ix2 r j)) k := by
  show Ideal.exp (x0 (ix2 r k) - broadcastInDim ⟨2, ![a, b]⟩ ![0, 1] hd (broadcastInDim ⟨2, ![a, 1]⟩ ![0] hd0
    (maximumf (broadcastInDim ⟨1, ![a]⟩ ![] hs (constant ⟨0, ![]⟩ .f32 0xFF800000#32))
      (Host.reduce FloatOps.maximumf x0 (constant ⟨0, ![]⟩ .f32 0xFF800000#32) hr' hu))) (ix2 r k)) = _
  rw [Cert.LibRowOps.colVec_host_apply]
  show Ideal.exp (x0 (ix2 r k) - max (broadcastInDim ⟨1, ![a]⟩ ![] hs (constant ⟨0, ![]⟩ .f32 0xFF800000#32) (ix1 r))
    (Host.reduce FloatOps.maximumf x0 (constant ⟨0, ![]⟩ .f32 0xFF800000#32) hr' hu (ix1 r))) = _
  rw [Cert.LibRowOps.rowMax_host_apply x0 _ hr' hr hu r,
    broadcastInDim_apply ![] hs (constant ⟨0, ![]⟩ .f32 0xFF800000#32) (ix1 r) (fun d => d.elim0) (fun d => d.elim0)]
  show Ideal.exp (x0 (ix2 r k) - max negInf ((Finset.univ : Finset (Fin b)).fold max negInf fun j => x0 (ix2 r j))) = _
  rw [max_eq_right (Finset.le_fold_max negInf |>.mpr (Or.inl le_rfl))]
  rfl

/-- The probabilities: the exponentials over their row's sum, totalled from the zero word. -/
def probsH : FVec Ideal ⟨2, ![a, b]⟩ .f32 :=
  Host.divf (expsH x0 hr' hu hs hd0 hd) (broadcastInDim ⟨2, ![a, b]⟩ ![0, 1] hd (broadcastInDim ⟨2, ![a, 1]⟩ ![0] hd0
    (Host.reduceAdd (expsH x0 hr' hu hs hd0 hd) (constant ⟨0, ![]⟩ .f32 0x00000000#32) hr' hu)))

theorem probsH_apply (hr : (⟨2, ![a, b]⟩ : Shape).Reduces [1] ⟨1, ![a]⟩) (r : Fin a) (k : Fin b) :
    probsH x0 hr' hu hs hd0 hd (ix2 r k) = prob (fun j => x0 (ix2 r j)) k := by
  show Ideal.div (expsH x0 hr' hu hs hd0 hd (ix2 r k)) (broadcastInDim ⟨2, ![a, b]⟩ ![0, 1] hd
    (broadcastInDim ⟨2, ![a, 1]⟩ ![0] hd0
      (Host.reduceAdd (expsH x0 hr' hu hs hd0 hd) (constant ⟨0, ![]⟩ .f32 0x00000000#32) hr' hu)) (ix2 r k)) = _
  rw [Cert.LibRowOps.colVec_host_apply, Cert.LibRowOps.rowSum_host_apply _ _ hr' hr hu r, expsH_apply x0 hr' hu hs hd0 hd hr]
  show Ideal.div _ (Ideal.ofBits .f32 0x00000000#32 + _) = _
  rw [Ideal.ofBits_zero_f32, zero_add]
  unfold prob
  exact congrArg _ (Finset.sum_congr rfl fun j _ => expsH_apply x0 hr' hu hs hd0 hd hr r j)

/-- The one-hot indicators: the rows' targets against the class numbers, laid along one row. -/
def hotsH (hd1 : (⟨2, ![1, b]⟩ : Shape).BroadcastsInDim ⟨2, ![a, b]⟩ ![0, 1]) : FVec Ideal ⟨2, ![a, b]⟩ .f32 :=
  uitofp .f32 (cmpi .eq (broadcastInDim ⟨2, ![a, b]⟩ ![0, 1] hd (broadcastInDim ⟨2, ![a, 1]⟩ ![0] hd0 x1))
    (broadcastInDim ⟨2, ![a, b]⟩ ![0, 1] hd1 (iotaInDim ⟨2, ![1, b]⟩ 32 1)))

theorem hotsH_apply (hd1 : (⟨2, ![1, b]⟩ : Shape).BroadcastsInDim ⟨2, ![a, b]⟩ ![0, 1]) (r : Fin a) (k : Fin b) :
    hotsH x1 hd0 hd hd1 (ix2 r k) = hot (x1 (ix1 r)) k := by
  show FloatOps.uitofp (F := Ideal) .f32 (IntOp.cmpi .eq
    (broadcastInDim ⟨2, ![a, b]⟩ ![0, 1] hd (broadcastInDim ⟨2, ![a, 1]⟩ ![0] hd0 x1) (ix2 r k))
    (broadcastInDim ⟨2, ![a, b]⟩ ![0, 1] hd1 (iotaInDim ⟨2, ![1, b]⟩ 32 1) (ix2 r k))) = _
  rw [uitofp_bit, Cert.LibRowOps.colVec_host_apply, broadcastInDim_oneRow_apply]
  unfold hot
  refine if_congr (IntOp.cmpi_eq.trans ?_) rfl rfl
  exact eq_comm

end Host

end Cert.LibSoftmaxRows

end
-- ==== Proof.DiceRow.lean ====
/-
  The self-adjusting dice loss of one row of logits, of all the rows, and of the batch, on the extended reals.

  For a row `x` of logits and a target class `t`: with `p k` the softmax probability of class `k` and `y k` the
  one-hot indicator of the target, the self-adjusting weight is `w k = (1 - p k) * p k` and the row's loss is
  `∑ k, (1 - (2 * (w k * y k) + 1) / ((w k + y k) + 1))`.

  The batch's loss is the total of the rows' losses divided by the number of entries. One program divides the
  total by rows × classes at once; the other divides each row's loss by the number of classes, totals, and
  divides by the number of rows. A product with a finite nonnegative constant distributes over every sum of
  extended reals (infinite terms included), so the two agree for every input: `normalise`.
-/
import proofs.«146801_j28621662060559_1_alg».proof.Proof.LibSoftmaxRows

noncomputable section

namespace Cert.Dice

open Idealize.ShloMosaic Idealize.ShloMosaic.ValueIdx Cert.LibSoftmaxRows

/-! ## The constants, as the words both programs spell -/

/-- The word of `1.0`. -/
abbrev one : EReal := Ideal.ofBits .f32 0x3F800000#32
/-- The word of `2.0`. -/
abbrev two : EReal := Ideal.ofBits .f32 0x40000000#32

/-- `1000.0`, the number of classes. -/
theorem word_1000 : Ideal.ofBits .f32 0x447A0000#32 = ((1000 : ℝ) : EReal) := by
  simp [Ideal.ofBits, Ideal.ieee, -EReal.coe_mul]; norm_num

/-- `32768.0`, the number of rows. -/
theorem word_32768 : Ideal.ofBits .f32 0x47000000#32 = ((32768 : ℝ) : EReal) := by
  simp [Ideal.ofBits, Ideal.ieee, -EReal.coe_mul]; norm_num

/-- `32768000.0`, the number of entries: rows × classes, exactly. -/
theorem word_32768000 : Ideal.ofBits .f32 0x4BFA0000#32 = ((32768000 : ℝ) : EReal) := by
  simp [Ideal.ofBits, Ideal.ieee, -EReal.coe_mul]; norm_num

/-- Raising to the power `1.0` changes nothing, at the infinities too. -/
theorem pow_one (x : EReal) : Ideal.pow x one = x := pow_word_one x

/-! ## One row, all the rows, the batch -/

/-- One class's dice term from its probability `p` and its indicator `y`. -/
def term (p y : EReal) : EReal :=
  one - Ideal.div (two * ((one - p) * p * y) + one) (((one - p) * p + y) + one)

/-- The loss of one row: the total of its classes' terms. -/
def rowLoss {n : ℕ} (x : Fin n → EReal) (t : BitVec 32) : EReal := ∑ k, term (prob x k) (hot t k)

variable {a b : ℕ}

/-- The losses of all the rows: entry `i` is the loss of row `i` of the logits against target `i`. -/
def rowLosses (X : (⟨2, ![a, b]⟩ : Shape).Idx → EReal) (T : (⟨1, ![a]⟩ : Shape).Idx → BitVec 32) :
    (⟨1, ![a]⟩ : Shape).Idx → EReal :=
  fun i => rowLoss (fun k : Fin b => X (ix2 (i 0 : Fin a) k)) (T (ix1 (i 0 : Fin a)))

/-- The batch's loss: the rows' losses totalled from the zero word, over `32768000` — the number of entries of
    the 32768 × 1000 arrays both programs take (the one size this is used at). -/
def batchLoss (X : (⟨2, ![a, b]⟩ : Shape).Idx → EReal) (T : (⟨1, ![a]⟩ : Shape).Idx → BitVec 32) : EReal :=
  Ideal.div (Ideal.ofBits .f32 0x00000000#32 + ∑ j, rowLosses X T j) (Ideal.ofBits .f32 0x4BFA0000#32)

/-! ## The two normalisations -/

/-- Each row's loss divided by the classes, totalled from zero, divided by the rows, is the total of the rows'
    losses from zero divided by the entries. -/
theorem normalise {ι : Type*} [Fintype ι] (f : ι → EReal) :
    Ideal.div (Ideal.ofBits .f32 0x00000000#32
        + ∑ j, Ideal.div (f j) (Ideal.ofBits .f32 0x447A0000#32)) (Ideal.ofBits .f32 0x47000000#32)
      = Ideal.div (Ideal.ofBits .f32 0x00000000#32 + ∑ j, f j) (Ideal.ofBits .f32 0x4BFA0000#32) := by
  rw [Ideal.ofBits_zero_f32, zero_add, zero_add, word_1000, word_32768, word_32768000,
    Ideal.div_coe (by norm_num : (32768 : ℝ) ≠ 0), Ideal.div_coe (by norm_num : (32768000 : ℝ) ≠ 0)]
  have h1 : ∀ j, Ideal.div (f j) ((1000 : ℝ) : EReal) = f j * ((1 / 1000 : ℝ) : EReal) :=
    fun j => Ideal.div_coe (by norm_num : (1000 : ℝ) ≠ 0) (f j)
  rw [Finset.sum_congr rfl fun j _ => h1 j,
    ← sum_mul_of_nonneg_ne_top Finset.univ f (by exact_mod_cast (by norm_num : (0 : ℝ) ≤ 1 / 1000)) (EReal.coe_ne_top _),
    mul_assoc, ← EReal.coe_mul]
  norm_num

end Cert.Dice

end
-- ==== Proof.DiceKernelRow.lean ====
/-
  What the kernel body stores for one block of 512 rows: at row `r` of the block, the loss of that row — the
  total over the 1000 classes of the dice terms of the row's softmax probabilities and of the one-hot indicator
  of the row's target. The body's arithmetic is pointwise but for the row maxima, the row sums of the
  exponentials, and the comparison of the class numbers with the targets; each of those is read at an entry
  as the row-level function, and the last sum along the row totals the terms.
-/
import proofs.«146801_j28621662060559_1_alg».proof.Proof.Gen.KernelIdeal.Skeleton
import proofs.«146801_j28621662060559_1_alg».proof.Proof.DiceRow

noncomputable section

namespace Cert.Dice

open Idealize.ShloMosaic Idealize.ShloMosaic.ValueIdx Cert.KernelIdeal Cert.KernelIdeal.Gen Cert.LibSoftmaxRows

/-- Row `r` of the block the body stores is the loss of row `r` of the logits block against target `r`. -/
theorem block_row (x0 : Vec Ideal S512x1000 .f32) (x1 : Vec Ideal S512 .i32) (r : Fin 512) :
    k0_pay1 (F := Ideal) x0 x1 (ix1 r) = rowLoss (fun k => x0 (ix2 r k)) (x1 (ix1 r)) := by
  have hP := fun k => probsK_apply x0 Facts₀.reduces_S512x1000_S512 Facts₀.shapeCasts_S512_S512x1 Facts₀.broadcasts_S512x1_S512x1000
    (.inl rfl) rfl rfl r k
  have hY := fun k => hotsK_apply x1 Facts₀.shapeCasts_S512_S512x1 Facts₀.broadcasts_S512x1_S512x1000
    Facts₀.iota_S512x1000_d1_w32 Facts₀.natLt_1_32 r k
  unfold k0_pay1
  dsimp only
  refine (Cert.LibRowOps.rowSum_kernel_apply _ _ _ _ _ r).trans ?_
  unfold rowLoss
  refine Finset.sum_congr rfl fun k _ => ?_
  rw [← hP k, ← hY k]
  rfl

end Cert.Dice

end
-- ==== Proof.DiceKernelArray.lean ====
/-
  The array of the rows' losses after the kernel's region. The grid has 64 points; point `t` is handed rows
  `512 t … 512 t + 511` of the logits (all 1000 classes) and of the targets, and writes back entries
  `512 t … 512 t + 511` of the result. Entry `r` of the block it writes is the loss of row `r` of its logits
  block against target `r` of its targets block, that is of row `512 t + r` of the arrays; the 64 blocks
  tile the result, so the whole array ends holding, at every `i`, the loss of row `i`.
-/
import proofs.«146801_j28621662060559_1_alg».proof.Proof.Gen.KernelIdeal.Frame
import proofs.«146801_j28621662060559_1_alg».proof.Proof.DiceKernelRow
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.Dice

open Cert.KernelIdeal Cert.KernelIdeal.Gen

variable (m : (ℓ : Loc nD τ sig) → Buf (Elt Ideal) ℓ) (ρ : Dev nD → PrngReg)

theorem zero1 : (![0] : Fin 1 → Nat) = fun _ => 0 := funext fun a => by fin_cases a; rfl
theorem zero2 : (![0, 0] : Fin 2 → Nat) = fun _ => 0 := funext fun a => by fin_cases a <;> rfl

/-- The block numbers at point `t`: rows block `t` of every window, the one block of classes. -/
theorem block_numbers : ∀ t : Fin cfg0.N, win0_2.index t (0 : Fin 1) = t.val ∧ win0_0.index t (0 : Fin 2) = t.val
    ∧ win0_0.index t (1 : Fin 2) = 0 ∧ win0_1.index t (0 : Fin 1) = t.val :=
  (by decide +kernel : ∀ t : Fin grid0.N, _)

/-- The block the body stores, at any entry: the loss of the entry's row of the logits block. -/
theorem block_entry (x0 : Vec Ideal S512x1000 .f32) (x1 : Vec Ideal S512 .i32) (j : S512.Idx) :
    k0_pay1 (F := Ideal) x0 x1 j = rowLoss (fun k : Fin 1000 => x0 (ix2 (j 0 : Fin 512) k)) (x1 (ix1 (j 0 : Fin 512))) := by
  obtain ⟨r, rfl⟩ : ∃ r : Fin 512, j = ix1 r := ⟨j 0, eq_ix1 j⟩
  exact block_row x0 x1 r

/-- What point `t` writes back is block `t` of the rows' losses of the arrays as the region finds them. -/
theorem flushed_eq (c : Dev nD) (t : Fin cfg0.N) :
    (dats m 0 c).flushed 2 t
      = ((cfg0.win 2).blk t).view.read (Elt Ideal) (rowLosses (V m c main_arg0) (V m c main_arg1)) := by
  show (cfg0.win 2).cut (grid0.coords t) ((dats m 0 c).after 2 t) = _
  rw [after0_2]
  unfold out0_2
  rw [View.canon_unit_zero zero1]
  simp only [View.ld_unit_zero (S := S512x1000) zero2, View.ld_unit_zero (S := S512) zero1]
  obtain ⟨e2, e00, e01, e1⟩ := block_numbers t
  funext j
  refine (block_entry (iblk m c 0 t) (iblk m c 1 t) j).trans ?_
  show rowLoss (fun k : Fin 1000 => V m c main_arg0 (((cfg0.win 0).blk t).view.emb (ix2 (j 0 : Fin 512) k)))
      (V m c main_arg1 (((cfg0.win 1).blk t).view.emb (ix1 (j 0 : Fin 512))))
    = rowLoss (fun k : Fin 1000 => V m c main_arg0 (ix2 ((((cfg0.win 2).blk t).view.emb j) 0 : Fin 32768) k))
      (V m c main_arg1 (ix1 ((((cfg0.win 2).blk t).view.emb j) 0 : Fin 32768)))
  have h0 : ∀ k : Fin 1000, ((cfg0.win 0).blk t).view.emb (ix2 (j 0 : Fin 512) k)
      = ix2 ((((cfg0.win 2).blk t).view.emb j) 0 : Fin 32768) k := fun k => by
    funext a; apply Fin.ext
    match a with
    | ⟨0, _⟩ => show win0_0.index t (0 : Fin 2) * 512 + 1 * (j 0).val = win0_2.index t (0 : Fin 1) * 512 + 1 * (j 0).val; omega
    | ⟨1, _⟩ => show win0_0.index t (1 : Fin 2) * 1000 + 1 * k.val = k.val; omega
  have h1 : ((cfg0.win 1).blk t).view.emb (ix1 (j 0 : Fin 512))
      = ix1 ((((cfg0.win 2).blk t).view.emb j) 0 : Fin 32768) := by
    funext a; apply Fin.ext
    match a with
    | ⟨0, _⟩ => show win0_1.index t (0 : Fin 1) * 512 + 1 * (j 0).val = win0_2.index t (0 : Fin 1) * 512 + 1 * (j 0).val; omega
  rw [h1, funext fun k => congrArg (V m c main_arg0) (h0 k)]
  rfl

/-- An entry of the result is in point `t`'s block iff it is in the block's range of rows. -/
theorem mem_block (t : Fin cfg0.N) (i : S32768.Idx) :
    i ∈ ((cfg0.win 2).blk t).view.set
      ↔ ∀ a : Fin 1, win0_2.index t a * S512.size a ≤ (i a).val ∧ (i a).val < win0_2.index t a * S512.size a + S512.size a := by
  show i ∈ ((View.whole main_v0).slice (win0_2.rect t)).set ↔ _
  rw [View.set_slice_whole, Rect.mem_set_unit]
  exact Iff.rfl

/-- Every entry of the result is in the block of the point its row belongs to. -/
theorem covered (i : S32768.Idx) : ∃ t : Fin cfg0.N, (cfg0.win 2).flush t = true ∧ i ∈ ((cfg0.win 2).blk t).view.set := by
  have hi : (i 0).val < 32768 := (i 0).isLt
  have hN : cfg0.N = 64 := N_0
  refine ⟨⟨(i 0).val / 512, by rw [hN]; omega⟩, flush0_2 _, ?_⟩
  rw [mem_block]
  intro a
  obtain ⟨e2, -, -, -⟩ := block_numbers ⟨(i 0).val / 512, by rw [hN]; omega⟩
  match a with
  | ⟨0, _⟩ =>
    show win0_2.index _ (0 : Fin 1) * 512 ≤ (i 0).val ∧ (i 0).val < win0_2.index _ (0 : Fin 1) * 512 + 512
    rw [e2]
    show (i 0).val / 512 * 512 ≤ (i 0).val ∧ (i 0).val < (i 0).val / 512 * 512 + 512
    omega

/-- The result array after the region: the loss of every row. -/
theorem final (c : Dev nD) : (dats m 0 c).arrAt 2 cfg0.N = rowLosses (V m c main_arg0) (V m c main_arg1) :=
  (dats m 0 c).arrAt_eq_of_cover 2 (rowLosses (V m c main_arg0) (V m c main_arg1)) (fun t _ => flushed_eq m c t) covered

end Cert.Dice

end
-- ==== Proof.DiceKernelRun.lean ====
/-
  The kernel's whole program, run: after the region the result array holds the rows' losses; the host lines
  that follow total them from the zero word and divide the total by the 32768000 entries. So every execution
  ends with the program's result at the batch's loss of the argument arrays, and the arguments unchanged.
-/
import proofs.«146801_j28621662060559_1_alg».proof.Proof.Gen.KernelIdeal.Frame
import proofs.«146801_j28621662060559_1_alg».proof.Proof.DiceKernelArray
import Idealize.ShloMosaic.Lib.StableHlo.Run
import Idealize.ShloMosaic.Lib.Pipeline.FrameSuffix
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.Dice

open Cert.KernelIdeal Cert.KernelIdeal.Gen

variable (m : (ℓ : Loc nD τ sig) → Buf (Elt Ideal) ℓ) (ρ : Dev nD → PrngReg)

/-- The host lines after the region leave, in the program's result, the batch's loss: the total of the result
    array (the rows' losses) from the zero word, over the number of entries. -/
theorem tail_result (c : Dev nD) :
    Pipeline.afterTail₀ cfgs (dats m) 0 (V0 m) [hostOps1] c main_v2
      = fun _ => batchLoss (m ((c : Thread nD τ).loc main_arg0)) (m ((c : Thread nD τ).loc main_arg1)) := by
  unfold Pipeline.afterTail₀
  show StableHlo.after hostOps1 _ (Proc.devRef .tc main_v2) = _
  after_results
  have hA : Pipeline.withArrays (cfgs 0).spec c (V0 m c) (fun w => (dats m 0 c).arrAt w (cfgs 0).N)
      (Proc.tc.devRef main_v0) = rowLosses (V m c main_arg0) (V m c main_arg1) :=
    (Pipeline.withArrays_arr spec0 launch0.win.arr_inj c _ _ 2).trans (final m c)
  rw [hA]
  funext i
  show Ideal.div (Ideal.hostReduceAdd Facts₀.reducesTo_S32768_S_d0 (rowLosses (V m c main_arg0) (V m c main_arg1))
    (Ideal.ofBits .f32 0x00000000#32) i) (Ideal.ofBits .f32 0x4BFA0000#32) = _
  rw [Ideal.hostReduceAdd_total Facts₀.reducesTo_S32768_S_d0 (fun d => d.elim0)]
  rfl

/-- Every execution of the kernel's program ends with its result at the batch's loss of the arguments, and the
    arguments unchanged. -/
theorem run : θ_run defs (onTc (τ := τ) (main (F := Ideal))) ⟨m, fun _ => 0, ρ⟩ fun r => ∀ c : Dev nD,
      r.2.mem ((c.tc : Thread nD τ).loc main_v2)
        = (fun _ => batchLoss (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v2 (Pipeline.mem_restRefs_of main_v2 rfl (by decide))).trans (tail_result m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.Dice

end
-- ==== Proof.DiceReference.lean ====
/-
  The reference's result. Stage by stage the host program computes, for every row, the same softmax
  probabilities and one-hot indicator as the row-level functions (its second maximum against minus infinity
  and its power with exponent one change nothing), totals each row's dice terms from the zero word,
  divides each row's total by the 1000 classes, totals the rows from the zero word and divides by the 32768
  rows. By the normalisation law that is the rows' losses totalled and divided by the 32768000 entries.
-/
import proofs.«146801_j28621662060559_1_alg».proof.Proof.Gen.ReferenceIdeal.Read
import proofs.«146801_j28621662060559_1_alg».proof.Proof.DiceRow

noncomputable section

namespace Cert.Dice

open Idealize.ShloMosaic Idealize.ShloMosaic.ValueIdx Cert.LibSoftmaxRows
open Cert.ReferenceIdeal Cert.ReferenceIdeal.Gen Cert.ReferenceIdeal.Read

variable (x0 : (⟨S32768x1000, .f32⟩ : BufTy).Contents (Elt Ideal)) (x1 : (⟨S32768, .i32⟩ : BufTy).Contents (Elt Ideal))

/-- One class's term of one row, as the reference computes it. -/
theorem ref_term (r : Fin 32768) (k : Fin 1000) :
    val_main_v27 (F := Ideal) x0 x1 (ix2 r k)
      = term (prob (fun j : Fin 1000 => x0 (ix2 r j)) k) (hot (x1 (ix1 r)) k) := by
  have hP : val_main_v10 (F := Ideal) x0 (ix2 r k) = prob (fun j : Fin 1000 => x0 (ix2 r j)) k :=
    probsH_apply x0 Facts₀.reducesTo_S32768x1000_S32768_d1 Facts₀.h_S_ Facts₀.bcast_S_S32768
      Facts₀.bcast_S32768_S32768x1_0 Facts₀.bcast_S32768x1_S32768x1000_0_1 (by decide) r k
  have hY : val_main_v11 (F := Ideal) x1 (ix2 r k) = hot (x1 (ix1 r)) k :=
    hotsH_apply x1 Facts₀.bcast_S32768_S32768x1_0 Facts₀.bcast_S32768x1_S32768x1000_0_1
      Facts₀.bcast_S1x1000_S32768x1000_0_1 r k
  simp only [val_main_v27_apply, val_main_v26_apply, val_main_cst_7_apply, val_main_v25_apply, val_main_v22_apply,
    val_main_v20_apply, val_main_v19_apply, val_main_cst_4_apply, val_main_v17_apply, val_main_v16_apply,
    val_main_v15_apply, val_main_v13_apply, val_main_v12_apply, val_main_cst_2_apply, val_main_v14_apply,
    val_main_cst_3_apply, val_main_v21_apply, val_main_cst_5_apply, val_main_v24_apply, val_main_v18_apply,
    val_main_v23_apply, val_main_cst_6_apply, Ideal.ofBits_def, Ideal.subf_def, Ideal.addf_def, Ideal.mulf_def,
    Ideal.hostDivf_def, Ideal.hostPowf_def, hP, hY]
  rw [pow_one]
  rfl

/-- The reference's total of a row's terms is the row's loss. -/
theorem ref_row (i : S32768.Idx) : val_main_v28 (F := Ideal) x0 x1 i = rowLosses x0 x1 i := by
  rw [val_main_v28_apply, val_main_cst_8_apply, Ideal.ofBits_def, Ideal.ofBits_zero_f32, zero_add]
  unfold rowLosses rowLoss
  refine Finset.sum_congr rfl fun k _ => ?_
  have e : idx_main_v28 i k = ix2 (i 0 : Fin 32768) k :=
    funext fun a => Fin.ext (by match a with | ⟨0, _⟩ => rfl | ⟨1, _⟩ => rfl)
  rw [e]
  exact ref_term x0 x1 (i 0) k

/-- The reference's result: the batch's loss. -/
theorem ref_result : val_main_v32 (F := Ideal) x0 x1 = fun _ => batchLoss x0 x1 := by
  funext i
  show Ideal.div (val_main_v31 (F := Ideal) x0 x1 i) (Ideal.ofBits .f32 0x47000000#32) = _
  rw [val_main_v31_apply]
  show Ideal.div (Ideal.ofBits .f32 0x00000000#32
      + ∑ j : S32768.Idx, Ideal.div (val_main_v28 (F := Ideal) x0 x1 j) (val_main_v29 (F := Ideal) j))
    (Ideal.ofBits .f32 0x47000000#32) = _
  have h29 : ∀ j : S32768.Idx, val_main_v29 (F := Ideal) j = Ideal.ofBits .f32 0x447A0000#32 := fun j => by
    rw [val_main_v29_apply]; rfl
  have hj : ∀ j : S32768.Idx, Ideal.div (val_main_v28 (F := Ideal) x0 x1 j) (val_main_v29 (F := Ideal) j)
      = Ideal.div (rowLosses x0 x1 j) (Ideal.ofBits .f32 0x447A0000#32) := fun j => by rw [h29 j, ref_row x0 x1 j]
  rw [Finset.sum_congr rfl fun j _ => hj j]
  exact normalise _

end Cert.Dice

end
-- ==== Proof.lean ====
/-
  The self-adjusting dice loss of a batch of 32768 rows of 1000 logits against their target classes: a kernel
  that computes each row's loss block by block and a host tail that averages them, against the plain
  array program.

  Both compute, for every row, the softmax probabilities `p` (exponentials of the entries less the row's
  maximum, over their sum), the one-hot indicator `y` of the row's target, the weight `w = (1 - p) p`, and the
  total over the classes of `1 - (2 w y + 1) / ((w + y) + 1)`. On the exact extended reals the two programs'
  operations are the same functions: a sum is a sum in whatever order, the reference's second maximum against
  minus infinity and its power with exponent `1` change nothing, and the two spellings of the indicator
  (a comparison bit read unsigned, or widened and read signed) both give `0` or `1`.

  They differ in the averaging. The kernel's program totals the rows' losses and divides by 32768000 = 32768 ×
  1000; the reference divides each row's loss by 1000, totals, and divides by 32768. A product with a finite
  nonnegative constant distributes over any sum of extended reals, so the two agree at every input, finite or
  not; the finiteness precondition is never opened.

  The modules: `LibSoftmaxRows` (a row's softmax probabilities and one-hot indicator, and their readings in the
  two programs' spellings), `DiceRow` (a row's loss, the batch's loss and the averaging law), `DiceKernelRow` / `DiceKernelArray` / `DiceKernelRun` (the block the body stores, the
  array of the rows' losses after the region, the program's result), `DiceReference` (the reference's result).
  The three frames and the facts are the generated modules'; the idealization rewrote nothing, so it preserves
  trivially.
-/
import proofs.«146801_j28621662060559_1_alg».proof.Defs
import proofs.«146801_j28621662060559_1_alg».proof.Proof.Gen.Kernel
import proofs.«146801_j28621662060559_1_alg».proof.Proof.Gen.Kernel.Skeleton
import proofs.«146801_j28621662060559_1_alg».proof.Proof.Gen.Kernel.Launch
import proofs.«146801_j28621662060559_1_alg».proof.Proof.Gen.Kernel.Points
import proofs.«146801_j28621662060559_1_alg».proof.Proof.Gen.Kernel.Frame
import proofs.«146801_j28621662060559_1_alg».proof.Proof.Gen.KernelIdeal
import proofs.«146801_j28621662060559_1_alg».proof.Proof.Gen.KernelIdeal.Skeleton
import proofs.«146801_j28621662060559_1_alg».proof.Proof.Gen.KernelIdeal.Launch
import proofs.«146801_j28621662060559_1_alg».proof.Proof.Gen.KernelIdeal.Points
import proofs.«146801_j28621662060559_1_alg».proof.Proof.Gen.KernelIdeal.Frame
import proofs.«146801_j28621662060559_1_alg».proof.Proof.Gen.ReferenceIdeal
import proofs.«146801_j28621662060559_1_alg».proof.Proof.Gen.ReferenceIdeal.Run
import proofs.«146801_j28621662060559_1_alg».proof.Proof.Gen.ReferenceIdeal.Read
import proofs.«146801_j28621662060559_1_alg».proof.Proof.Gen.Pre_finite_inputs
import proofs.«146801_j28621662060559_1_alg».proof.Proof.DiceKernelRun
import proofs.«146801_j28621662060559_1_alg».proof.Proof.DiceReference
import Idealize.ShloMosaic.Adequacy
import Idealize.ShloMosaic.Init

noncomputable section

namespace Cert.Proof

open Idealize.ShloMosaic Idealize.ShloMosaic.TcCoe Idealize.SL.Sem

/-- The word-level kernel program runs, and keeps its arguments. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference runs and keeps its arguments: its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Both programs end at the batch's loss of the same argument arrays. -/
theorem algebraic : Cert.algebraic_KernelIdeal_ReferenceIdeal := by
  intro m ρ m' ρ' _ hagree
  refine ⟨fun c => fun _ => Cert.Dice.batchLoss
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.Dice.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v32_eq, Cert.Dice.ref_result, (hagree c).1, (hagree c).2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
